-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x1000 : Shape := ⟨2, ![512, 1000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_

variable [Facts]

def fn {F : FTy → Type} [FloatOps F] (main_arg0 : FVec F S8192x512 .f32) (main_arg1 : FVec F S512x1000 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x1000 .f32 := Host.absf main_arg1
  let main_cst_0 : FVec F S_ .f32 := constant S_ .f32 0x7F800000#32
  let main_v5 : FVec F S512x1000 .f32 := broadcastInDim S512x1000 ![] bcast_S_S512x1000 main_cst_0
  let main_v6 : IVec S512x1000 1 := cmpf .olt main_v4 main_v5
  let main_c_1 : IVec S_ 1 := constantI S_ 1 1#1
  let main_v7 : IVec S_ 1 := (fun x v => Host.reduce IntOp.andi x v reducesTo_S512x1000_S_d0_1 h_S_) main_v6 main_c_1
  let main_v8 : IVec S_ 1 := andi main_v3 main_v7
  main_v8
-- ==== Kernel.lean ====
abbrev S8192x512 : Shape := ⟨2, ![8192, 512]⟩
abbrev S512x1000 : Shape := ⟨2, ![512, 1000]⟩
abbrev S_ : Shape := ⟨0, ![]⟩
abbrev S512x1024 : Shape := ⟨2, ![512, 1024]⟩
abbrev S1024 : Shape := ⟨1, ![1024]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩
abbrev S1024x1 : Shape := ⟨2, ![1024, 1]⟩
abbrev S8192x1000 : Shape := ⟨2, ![8192, 1000]⟩

abbrev nBuf : Space → Nat
  | .hbm => 12
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1000, .f32⟩
  | .hbm, ⟨2, _⟩ => ⟨S_, .i32⟩
  | .hbm, ⟨3, _⟩ => ⟨S_, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S8192x1000, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S512x1000_S512x1024_000_0240 : S512x1000.Pads (![0, 0] : Fin 2 → Nat) ![0, 24] ![0, 0] S512x1024
  h_S_ : 0 < S_.numel
  bitsLt_bf16_f32 : FTy.bits .bf16 < FTy.bits .f32
  reducesTo_S512x1024_S1024_d0 : S512x1024.ReducesTo [0] S1024
  bcast_S1024_S1x1024_1 : S1024.BroadcastsInDim S1x1024 (![1] : Fin 1 → Fin S1x1024.rank)
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S8192x1024_S8192x1000_0_0 : S8192x1024.Slices ![0, 0] S8192x1000
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x1000 : Shape := ⟨2, ![512, 1000]⟩
abbrev S_ : Shape := ⟨0, ![]⟩
abbrev S8192 : Shape := ⟨1, ![8192]⟩
abbrev S8192x1 : Shape := ⟨2, ![8192, 1]⟩
abbrev S1000 : Shape := ⟨1, ![1000]⟩
abbrev S1x1000 : Shape := ⟨2, ![1, 1000]⟩
abbrev S8192x1000 : Shape := ⟨2, ![8192, 1000]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1000, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S512x1000, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S8192x1000, .f32⟩
  | .hbm, ⟨11, _⟩ => ⟨S8192x1000, .f32⟩
  | .hbm, ⟨12, _⟩ => ⟨S8192x1000, .f32⟩
  | .hbm, ⟨13, _⟩ => ⟨S8192x1000, .f32⟩
  | .hbm, ⟨14, _⟩ => ⟨S_, .f32⟩
  | .hbm, ⟨15, _⟩ => ⟨S8192x1000, .f32⟩
  | .hbm, ⟨16, _⟩ => ⟨S8192x1000, .f32⟩
  | .hbm, ⟨17, _⟩ => ⟨S8192x1000, .f32⟩
  | .hbm, ⟨18, _⟩ => ⟨S_, .f32⟩
  | .hbm, ⟨19, _⟩ => ⟨S8192x1000, .f32⟩
  | .hbm, ⟨20, _⟩ => ⟨S8192x1000, .f32⟩
  | .hbm, ⟨21, _⟩ => ⟨S8192x1000, .f32⟩
  | .hbm, ⟨22, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x1000_S1000_d0 : S512x1000.ReducesTo [0] S1000
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x512_S512x1000_S8192x1000_1_0_0_1_n_n_wf : DotDims.WF S8192x512 S512x1000 S8192x1000 [1] [0] [0] [1] [] []

variable [Facts₀]

def dot_S8192x512_S512x1000_S8192x1000_1_0_0_1_n_n : DotDims S8192x512 S512x1000 S8192x1000 where
  lhsContracting := [1]
  rhsContracting := [0]
  lhsNonContracting := [0]
  rhsNonContracting := [1]
  lhsBatch := []
  rhsBatch := []
  wf := dot_S8192x512_S512x1000_S8192x1000_1_0_0_1_n_n_wf

class Facts : Prop extends Facts₀ where

variable [Facts]
-- ==== Proof.LibNegDistance.lean ====
/-
  The table of negated Euclidean distances between the rows of a matrix x : [B, D] and the columns of a
  matrix w : [D, C], on the extended reals:

      table x w (b, c) = -sqrt (max ((|x_b|^2 + |w_c|^2) - 2 * <x_b, w_c>, 0)),

  where |x_b|^2 is the sum over k < D of x (b, k)^2, |w_c|^2 the sum over k of w (k, c)^2 and <x_b, w_c> the sum
  over k of x (b, k) * w (k, c). The grouping (|x_b|^2 + |w_c|^2) - 2 * <x_b, w_c> is kept as written: on the
  extended reals a difference may not be regrouped, and nothing here regroups one. The sums are sums in a
  commutative monoid, so they depend on no order, and nothing is assumed finite.

  `fused` is the same entry with the column norms handed in as a row n : [1, C] (a program that computes the
  column norms once, ahead of the rows). Two facts about it:

  * ROW LOCALITY (`fused_rows`): an entry reads one row of x, one column of w and one entry of n, so a block of rows
    of x gives, entry by entry, the rows of the whole table at the block's position;
  * COLUMNS ADDED AND CUT (`fused_eq_table`): if w' : [D, C'] agrees with w on a column and n holds that column's
    squared norm there, the fused entry is the table's entry. Zero columns appended to w and cut from the result
    change nothing.
-/
import Idealize.ShloMosaic.PureOps.Ideal.Laws
import Idealize.ShloMosaic.Lib.ValueIdx

noncomputable section

namespace NegDistance

open Idealize.ShloMosaic Idealize.ShloMosaic.ValueIdx

/-- One entry from the row's squared norm `a`, the column's squared norm `b` and their inner product `p`:
    -sqrt (max ((a + b) - 2 * p, 0)); the factor two is the f32 word 0x40000000. -/
def entry (a b p : EReal) : EReal :=
  -Ideal.sqrt (max ((a + b) - Ideal.ofBits .f32 0x40000000#32 * p) 0)

/-- The entry as a program spells it: the negation as a difference from the zero word, the floor of the maximum the
    zero word. -/
theorem entry_of_words (a b p : EReal) :
    Ideal.ofBits .f32 0x00000000#32
        - Ideal.sqrt (max ((a + b) - Ideal.ofBits .f32 0x40000000#32 * p) (Ideal.ofBits .f32 0x00000000#32))
      = entry a b p := by
  unfold entry
  rw [Ideal.ofBits_zero_f32, sub_eq_add_neg, zero_add]

variable (B D C : ℕ)

/-- The table with the column norms given as a row. -/
def fused (x : (⟨2, ![B, D]⟩ : Shape).Idx → EReal) (w : (⟨2, ![D, C]⟩ : Shape).Idx → EReal)
    (n : (⟨2, ![1, C]⟩ : Shape).Idx → EReal) : (⟨2, ![B, C]⟩ : Shape).Idx → EReal :=
  fun i => entry (∑ k : Fin D, x (ix2 (i 0) k) * x (ix2 (i 0) k)) (n (ix2 (0 : Fin 1) (i 1)))
    (∑ k : Fin D, x (ix2 (i 0) k) * w (ix2 k (i 1)))

/-- The table of negated distances. -/
def table (x : (⟨2, ![B, D]⟩ : Shape).Idx → EReal) (w : (⟨2, ![D, C]⟩ : Shape).Idx → EReal) :
    (⟨2, ![B, C]⟩ : Shape).Idx → EReal :=
  fun i => entry (∑ k : Fin D, x (ix2 (i 0) k) * x (ix2 (i 0) k)) (∑ k : Fin D, w (ix2 k (i 1)) * w (ix2 k (i 1)))
    (∑ k : Fin D, x (ix2 (i 0) k) * w (ix2 k (i 1)))

/-- ROW LOCALITY. If row `j 0` of the block `xb` is row `i 0` of `X`, and column `j 1` of `wb` and of `nb` is column
    `i 1` of `W` and of `N`, the block's entry at `j` is the whole table's entry at `i`. -/
theorem fused_rows {Bb Cb : ℕ} (X : (⟨2, ![B, D]⟩ : Shape).Idx → EReal) (W : (⟨2, ![D, C]⟩ : Shape).Idx → EReal)
    (N : (⟨2, ![1, C]⟩ : Shape).Idx → EReal)
    (xb : (⟨2, ![Bb, D]⟩ : Shape).Idx → EReal) (wb : (⟨2, ![D, Cb]⟩ : Shape).Idx → EReal)
    (nb : (⟨2, ![1, Cb]⟩ : Shape).Idx → EReal)
    (j : (⟨2, ![Bb, Cb]⟩ : Shape).Idx) (i : (⟨2, ![B, C]⟩ : Shape).Idx)
    (hx : ∀ k : Fin D, xb (ix2 (j 0) k) = X (ix2 (i 0) k)) (hw : ∀ k : Fin D, wb (ix2 k (j 1)) = W (ix2 k (i 1)))
    (hn : nb (ix2 (0 : Fin 1) (j 1)) = N (ix2 (0 : Fin 1) (i 1))) :
    fused Bb D Cb xb wb nb j = fused B D C X W N i := by
  unfold fused
  rw [hn, Finset.sum_congr rfl fun k _ => show xb (ix2 (j 0) k) * xb (ix2 (j 0) k) = X (ix2 (i 0) k) * X (ix2 (i 0) k) by rw [hx k],
    Finset.sum_congr rfl fun k _ => show xb (ix2 (j 0) k) * wb (ix2 k (j 1)) = X (ix2 (i 0) k) * W (ix2 k (i 1)) by rw [hx k, hw k]]

/-- COLUMNS ADDED AND CUT. If the wider `W` agrees with `w` on column `c` (its column `c'`) and `N` holds that
    column's squared norm, the fused entry at (b, c') is the table's entry at (b, c). -/
theorem fused_eq_table {C' : ℕ} (X : (⟨2, ![B, D]⟩ : Shape).Idx → EReal) (w : (⟨2, ![D, C]⟩ : Shape).Idx → EReal)
    (W : (⟨2, ![D, C']⟩ : Shape).Idx → EReal) (N : (⟨2, ![1, C']⟩ : Shape).Idx → EReal)
    (b : Fin B) (c : Fin C) (c' : Fin C')
    (hw : ∀ k : Fin D, W (ix2 k c') = w (ix2 k c))
    (hn : N (ix2 (0 : Fin 1) c') = ∑ k : Fin D, w (ix2 k c) * w (ix2 k c)) :
    fused B D C' X W N (ix2 b c') = table B D C X w (ix2 b c) := by
  show entry (∑ k : Fin D, X (ix2 b k) * X (ix2 b k)) (N (ix2 (0 : Fin 1) c')) (∑ k : Fin D, X (ix2 b k) * W (ix2 k c'))
    = entry (∑ k : Fin D, X (ix2 b k) * X (ix2 b k)) (∑ k : Fin D, w (ix2 k c) * w (ix2 k c)) (∑ k : Fin D, X (ix2 b k) * w (ix2 k c))
  rw [hn, Finset.sum_congr rfl fun k _ => show X (ix2 b k) * W (ix2 k c') = X (ix2 b k) * w (ix2 k c) by rw [hw k]]

end NegDistance

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.BlockEntry.lean ====
/-
  What the kernel's body computes for one block of rows, entry by entry, on the extended reals.

  The body is handed a block x0 of 1024 rows of the left matrix, the whole right matrix v2 (already cast to the
  matmul's input format, which changes no value here) and the row v8 of column norms. Its result at (p, q) is

      0 - sqrt (max ((sum_k x0(p,k)^2 + v8(0,q)) - 2 * sum_k x0(p,k) * v2(k,q), 0)),

  the entry `NegDistance.fused 1024 512 1024 x0 v2 v8` at (p, q). Three parts of the body are not entry-by-entry
  operations and are read separately: the row sum kept as a column and spread over the columns, the row of norms
  spread over the rows, and the matrix product into the zero accumulator; everything else is read entry by entry.
-/
import proofs.«139918_j47777216201318_2_alg».proof.Proof.Gen.KernelIdeal.Skeleton
import proofs.«139918_j47777216201318_2_alg».proof.Proof.LibNegDistance
import proofs.«139918_j47777216201318_2_alg».proof.Proof.LibKeepdims
import proofs.«139918_j47777216201318_2_alg».proof.Proof.LibPlainDot
import Idealize.ShloMosaic.Lib.Pipeline.Value
import Idealize.ShloMosaic.Lib.ValueLayout

noncomputable section

namespace Cert.KernelIdeal.BlockEntry

open Idealize.ShloMosaic Idealize.ShloMosaic.ValueIdx Cert.KernelIdeal Cert.KernelIdeal.Gen

/-- The squared norm of row p of the block, kept as a column and spread over the columns, read at (p, q). -/
theorem rowNorm_apply (x0 : FVec Ideal S1024x512 .f32) (p q : Fin 1024) :
    broadcastTo S1024x1024
        (shapeCast S1024x1 (multiReduction .add [1] S1024 (mulf x0 x0) 0x00000000#32 reduces_S1024x512_S1024 (.inl rfl) rfl)
          shapeCasts_S1024_S1024x1)
        broadcasts_S1024x1_S1024x1024 (ix2 p q)
      = ∑ k : Fin 512, (x0 (ix2 p k) : EReal) * x0 (ix2 p k) :=
  (Keepdims.broadcastTo_a1_ab_apply _ broadcasts_S1024x1_S1024x1024 p q).trans
    (Keepdims.rowSumKeep_apply (mulf x0 x0) 0x00000000#32 reduces_S1024x512_S1024 (.inl rfl) rfl
      shapeCasts_S1024_S1024x1 p (0 : Fin 1))

/-- The row of column norms spread over the rows, read at (p, q): its entry q. -/
theorem colNorm_apply (v8 : FVec Ideal S1x1024 .f32) (p q : Fin 1024) :
    broadcastTo S1024x1024 (shapeCast S1x1024 v8 shapeCasts_S1x1024_S1x1024) broadcasts_S1x1024_S1024x1024 (ix2 p q)
      = v8 (ix2 (0 : Fin 1) q) :=
  (broadcastTo_1b_ab_apply _ broadcasts_S1x1024_S1024x1024 p q).trans
    (congrFun (shapeCast_self v8 shapeCasts_S1x1024_S1x1024) _)

/-- The matrix product of the block with the right matrix, into the zero accumulator, read at (p, q). -/
theorem cross_apply (x0 : FVec Ideal S1024x512 .f32) (v2 : FVec Ideal S512x1024 .bf16) (p q : Fin 1024) :
    matmul dot_S1024x512_S512x1024_S1024x1024_1_0_0_1_n_n none (truncf .bf16 x0 bitsLt_bf16_f32)
        (shapeCast S512x1024 v2 shapeCasts_S512x1024_S512x1024) (constant S1024x1024 .f32 0x00000000#32) (ix2 p q)
      = ∑ k : Fin 512, (x0 (ix2 p k) : EReal) * v2 (ix2 k q) :=
  (PlainDot.matmul_zero_apply 1024 512 1024 none (truncf .bf16 x0 bitsLt_bf16_f32)
      (shapeCast S512x1024 v2 shapeCasts_S512x1024_S512x1024) (ix2 p q)).trans
    (Finset.sum_congr rfl fun k _ =>
      congrArg (fun z : EReal => (x0 (ix2 p k) : EReal) * z) (congrFun (shapeCast_self v2 shapeCasts_S512x1024_S512x1024) (ix2 k q)))

/-- The body's result at (p, q) is the fused entry of its three operands. -/
theorem pay_apply (x0 : FVec Ideal S1024x512 .f32) (v2 : FVec Ideal S512x1024 .bf16) (v8 : FVec Ideal S1x1024 .f32)
    (p q : Fin 1024) :
    k0_pay1 (F := Ideal) x0 v2 v8 (ix2 p q) = NegDistance.fused 1024 512 1024 x0 v2 v8 (ix2 p q) := by
  have e : k0_pay1 (F := Ideal) x0 v2 v8 (ix2 p q)
      = Ideal.ofBits .f32 0x00000000#32
        - Ideal.sqrt (max ((broadcastTo S1024x1024
              (shapeCast S1024x1 (multiReduction .add [1] S1024 (mulf x0 x0) 0x00000000#32 reduces_S1024x512_S1024 (.inl rfl) rfl)
                shapeCasts_S1024_S1024x1)
              broadcasts_S1024x1_S1024x1024 (ix2 p q)
            + broadcastTo S1024x1024 (shapeCast S1x1024 v8 shapeCasts_S1x1024_S1x1024) broadcasts_S1x1024_S1024x1024 (ix2 p q))
          - Ideal.ofBits .f32 0x40000000#32
            * matmul dot_S1024x512_S512x1024_S1024x1024_1_0_0_1_n_n none (truncf .bf16 x0 bitsLt_bf16_f32)
                (shapeCast S512x1024 v2 shapeCasts_S512x1024_S512x1024) (constant S1024x1024 .f32 0x00000000#32) (ix2 p q))
          (Ideal.ofBits .f32 0x00000000#32)) := rfl
  rw [e, rowNorm_apply, colNorm_apply, cross_apply, NegDistance.entry_of_words]
  rfl

/-- The body's result is the fused table of its three operands. -/
theorem pay_eq (x0 : FVec Ideal S1024x512 .f32) (v2 : FVec Ideal S512x1024 .bf16) (v8 : FVec Ideal S1x1024 .f32) :
    k0_pay1 (F := Ideal) x0 v2 v8 = NegDistance.fused 1024 512 1024 x0 v2 v8 :=
  funext fun j => by rw [eq_ix2 j]; exact pay_apply x0 v2 v8 (j 0) (j 1)

end Cert.KernelIdeal.BlockEntry

end
-- ==== Proof.WholeTable.lean ====
/-
  From the blocks to the whole array: what the kernel's output array [8192, 1024] holds after all eight grid points.

  Grid point t is handed rows 1024 t .. 1024 t + 1023 of the left matrix, the whole second operand and the whole row
  of norms, and writes back rows 1024 t .. 1024 t + 1023 of the output. By the body's value at an entry
  (`BlockEntry.pay_eq`) and row locality (`NegDistance.fused_rows`), what point t writes back is the block at rows
  1024 t .. of ONE table, `full`: the fused table of the three arrays as the kernel finds them. The eight blocks tile
  the output (row r lies in the block of point r / 1024), so the output array ends holding `full`.
-/
import proofs.«139918_j47777216201318_2_alg».proof.Proof.Gen.KernelIdeal.Frame
import proofs.«139918_j47777216201318_2_alg».proof.Proof.BlockEntry
import proofs.«139918_j47777216201318_2_alg».proof.Proof.LibNegDistance
import Idealize.ShloMosaic.Lib.Pipeline.Value

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The printed index maps over the grid: the left matrix's and the output's blocks move down one block of rows per
    point, the other two operands' blocks stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left matrix's block at point t: its row p is row 1024 t + p of the array. -/
theorem rows_apply (c : Dev nD) (t : Fin cfg0.N) (p : Fin 1024) (k : Fin 512) (b : Fin 8192)
    (hb : b.val = t.val * 1024 + p.val) :
    (iblk m c 0 t : S1024x512.Idx → EReal) (ix2 p k) = (V m c main_arg0 : S8192x512.Idx → EReal) (ix2 b k) := by
  obtain ⟨e0, e1, -⟩ := idx_facts t
  have h : ((cfg0.win 0).blk t).view.emb (ix2 p k) = (ix2 b k : S8192x512.Idx) := funext fun a => Fin.ext (by
    match a with
    | ⟨0, _⟩ => show win0_0.index t (0 : Fin 2) * 1024 + 1 * p.val = b.val; omega
    | ⟨1, _⟩ => show win0_0.index t (1 : Fin 2) * 512 + 1 * k.val = k.val; omega)
  show (V m c main_arg0 : S8192x512.Idx → EReal) (((cfg0.win 0).blk t).view.emb (ix2 p k)) = _
  rw [h]

/-- The second operand's block at every point is the whole array. -/
theorem right_apply (c : Dev nD) (t : Fin cfg0.N) (k : Fin 512) (q : Fin 1024) :
    (iblk m c 1 t : S512x1024.Idx → EReal) (ix2 k q) = (V m c main_v1 : S512x1024.Idx → EReal) (ix2 k q) := by
  obtain ⟨-, -, e2, e3, -⟩ := idx_facts t
  have h : ((cfg0.win 1).blk t).view.emb (ix2 k q) = (ix2 k q : S512x1024.Idx) := funext fun a => Fin.ext (by
    match a with
    | ⟨0, _⟩ => show win0_1.index t (0 : Fin 2) * 512 + 1 * k.val = k.val; omega
    | ⟨1, _⟩ => show win0_1.index t (1 : Fin 2) * 1024 + 1 * q.val = q.val; omega)
  show (V m c main_v1 : S512x1024.Idx → EReal) (((cfg0.win 1).blk t).view.emb (ix2 k q)) = _
  rw [h]

/-- The row of norms' block at every point is the whole row. -/
theorem norms_apply (c : Dev nD) (t : Fin cfg0.N) (q : Fin 1024) :
    (iblk m c 2 t : S1x1024.Idx → EReal) (ix2 (0 : Fin 1) q) = (V m c main_v4 : S1x1024.Idx → EReal) (ix2 (0 : Fin 1) q) := by
  obtain ⟨-, -, -, -, e4, e5, -⟩ := idx_facts t
  have h : ((cfg0.win 2).blk t).view.emb (ix2 (0 : Fin 1) q) = (ix2 (0 : Fin 1) q : S1x1024.Idx) := funext fun a => Fin.ext (by
    match a with
    | ⟨0, _⟩ => show win0_2.index t (0 : Fin 2) * 1 + 1 * 0 = 0; omega
    | ⟨1, _⟩ => show win0_2.index t (1 : Fin 2) * 1024 + 1 * q.val = q.val; omega)
  show (V m c main_v4 : S1x1024.Idx → EReal) (((cfg0.win 2).blk t).view.emb (ix2 (0 : Fin 1) q)) = _
  rw [h]

/-- The whole table on the widened columns: the fused table of the three arrays as the kernel finds them. -/
def full (c : Dev nD) : S8192x1024.Idx → EReal :=
  NegDistance.fused 8192 512 1024 (V m c main_arg0) (V m c main_v1) (V m c main_v4)

/-- WHAT POINT t WRITES BACK is the block at rows 1024 t .. of `full`. -/
theorem flushed_eq (c : Dev nD) (t : Fin cfg0.N) :
    (dats m 0 c).flushed 3 t = ((cfg0.win 3).blk t).view.read (Elt Ideal) (full m c) := by
  show (cfg0.win 3).cut (grid0.coords t) ((dats m 0 c).after 3 t) = _
  rw [after0_3]
  unfold out0_3
  rw [View.canon_unit_zero hz]
  simp only [View.ld_unit_zero (S := S1024x512) hz, View.ld_unit_zero (S := S512x1024) hz, View.ld_unit_zero (S := S1x1024) hz]
  rw [BlockEntry.pay_eq]
  funext j
  obtain ⟨p, q, rfl⟩ : ∃ (p : Fin 1024) (q : Fin 1024), j = ix2 p q := ⟨j 0, j 1, eq_ix2 j⟩
  have hN : cfg0.N = 8 := N_0
  have ht : t.val < cfg0.N := t.isLt
  obtain ⟨-, -, -, -, -, -, e6, e7⟩ := idx_facts t
  have hemb : ((cfg0.win 3).blk t).view.emb (ix2 p q) = (ix2 (⟨t.val * 1024 + p.val, by omega⟩ : Fin 8192) q : S8192x1024.Idx) :=
    funext fun a => Fin.ext (by
      match a with
      | ⟨0, _⟩ => show win0_3.index t (0 : Fin 2) * 1024 + 1 * p.val = t.val * 1024 + p.val; omega
      | ⟨1, _⟩ => show win0_3.index t (1 : Fin 2) * 1024 + 1 * q.val = q.val; omega)
  show NegDistance.fused 1024 512 1024 (iblk m c 0 t) (iblk m c 1 t) (iblk m c 2 t) (ix2 p q)
    = full m c (((cfg0.win 3).blk t).view.emb (ix2 p q))
  rw [hemb]
  exact NegDistance.fused_rows 8192 512 1024 (Bb := 1024) (Cb := 1024) (V m c main_arg0) (V m c main_v1) (V m c main_v4)
    (iblk m c 0 t) (iblk m c 1 t) (iblk m c 2 t) (ix2 p q) (ix2 (⟨t.val * 1024 + p.val, by omega⟩ : Fin 8192) q)
    (fun k => rows_apply m c t p k ⟨t.val * 1024 + p.val, by omega⟩ rfl)
    (fun k => right_apply m c t k q)
    (norms_apply m c t q)

/-- An index of the output is in point t's block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- The blocks tile the output: row r is in the block of point r / 1024. -/
theorem cover (i : S8192x1024.Idx) :
    ∃ t : Fin cfg0.N, (cfg0.win 3).flush t = true ∧ i ∈ ((cfg0.win 3).blk t).view.set := by
  have hN : cfg0.N = 8 := N_0
  have hi0 : (i 0).val < 8192 := (i 0).isLt
  have hi1 : (i 1).val < 1024 := (i 1).isLt
  obtain ⟨t, ht⟩ : ∃ t : Fin cfg0.N, t.val = (i 0).val / 1024 := ⟨⟨(i 0).val / 1024, by omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE OUTPUT ARRAY after the run holds `full`. -/
theorem final (c : Dev nD) : (dats m 0 c).arrAt 3 cfg0.N = full m c :=
  (dats m 0 c).arrAt_eq_of_cover 3 (full m c) (fun t _ => flushed_eq m c t) (cover)

end Cert.KernelIdeal.Whole

end
-- ==== Proof.PaddedWeights.lean ====
/-
  What the program computes from the right matrix w : [512, 1000] before it launches the kernel, read at an index.

  w is extended by 24 columns holding the padding value (the integer 0 converted, which is the real 0) to
  `padded w` : [512, 1024]. The kernel's second operand is `padded w` cast to the matmul's input format (no value
  changes), and its third operand is the row of the squared column norms of `padded w`: the sum over axis 0 of the
  entrywise square, started from the zero word, laid as [1, 1024].

  Read at a column q < 1000: the second operand's entry (k, q) is w (k, q), and the third operand's entry (0, q)
  is the sum over k of w (k, q)^2. (The 24 added columns are never read by what follows.)
-/
import proofs.«139918_j47777216201318_2_alg».proof.Proof.Gen.KernelIdeal.Frame
import Idealize.ShloMosaic.Lib.KernelVsHost
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Padded

open Idealize.ShloMosaic Idealize.ShloMosaic.TcCoe Idealize.ShloMosaic.ValueIdx Idealize.ShloMosaic.StableHlo
open Idealize.SL.Sem Cert.KernelIdeal Cert.KernelIdeal.Gen

/-- w with 24 columns of the padding value appended. -/
def padded (w : FVec Ideal S512x1000 .f32) : FVec Ideal S512x1024 .f32 :=
  pad S512x1024 ![0, 0] ![0, 24] ![0, 0] w (sitofp (F := Ideal) .f32 (constantI S_ 32 0#32))
    pads_S512x1000_S512x1024_000_0240 h_S_

/-- The row of squared column norms of a [512, 1024] matrix, as the program lays it: [1, 1024]. -/
def normRow (v : FVec Ideal S512x1024 .f32) : FVec Ideal S1x1024 .f32 :=
  broadcastInDim S1x1024 ![1] bcast_S1024_S1x1024_1
    (Host.reduceAdd (F := Ideal) (mulf v v) (constant (F := Ideal) S_ .f32 0x00000000#32) reducesTo_S512x1024_S1024_d0 h_S_)

/-- Inside the first 1000 columns the padded matrix is w. -/
theorem padded_apply (w : FVec Ideal S512x1000 .f32) (k : Fin 512) (q : Fin 1024) (c : Fin 1000) (hq : q.val = c.val) :
    padded w (ix2 k q) = w (ix2 k c) :=
  pad_apply_of_inside _ _ _ w _ pads_S512x1000_S512x1024_000_0240 h_S_ (ix2 k q) (ix2 k c) fun a => by
    match a with
    | ⟨0, _⟩ => show k.val = 0 + k.val * (0 + 1); omega
    | ⟨1, _⟩ => show q.val = 0 + c.val * (0 + 1); omega

/-- The sum over axis 0 of a [512, 1024] array started from the zero word, at column q: the sum over k of entry (k, q). -/
theorem colSum_apply (v : FVec Ideal S512x1024 .f32) (q : Fin 1024) :
    Host.reduceAdd (F := Ideal) v (constant (F := Ideal) S_ .f32 0x00000000#32) reducesTo_S512x1024_S1024_d0 h_S_ (ix1 q)
      = ∑ k : Fin 512, (v (ix2 k q) : EReal) := by
  simp only [Host.reduceAdd, Ideal.hostReduceAdd_def]
  rw [Ideal.hostReduceAdd_single reducesTo_S512x1024_S1024_d0 (by decide)]
  show Ideal.ofBits .f32 0x00000000#32 + _ = _
  rw [Ideal.ofBits_zero_f32, zero_add]
  exact Finset.sum_congr rfl fun k _ => congrArg v (funext fun a => Fin.ext (by
    match a with | ⟨0, _⟩ => rfl | ⟨1, _⟩ => rfl))

/-- The row of norms at column q is the sum over k of the squares of column q. -/
theorem normRow_apply (v : FVec Ideal S512x1024 .f32) (q : Fin 1024) :
    normRow v (ix2 (0 : Fin 1) q) = ∑ k : Fin 512, (v (ix2 k q) : EReal) * v (ix2 k q) := by
  unfold normRow
  refine (broadcastInDim_apply _ bcast_S1024_S1x1024_1 _ (ix2 (0 : Fin 1) q) (ix1 q) (fun a => by
    match a with
    | ⟨0, _⟩ => show q.val = if (1024 : Nat) = 1 then 0 else q.val; rw [if_neg (by decide)])).trans ?_
  exact colSum_apply (mulf v v) q

variable (m : (ℓ : Loc nD τ sig) → Buf (Elt Ideal) ℓ)

/-- When the kernel is launched its second operand holds the padded w, cast. -/
theorem V_operand1 (c : Dev nD) :
    (V m c main_v1 : S512x1024.Idx → EReal)
      = truncf .bf16 (padded (m ((c : Thread nD τ).loc main_arg1))) bitsLt_bf16_f32 := by
  dsimp only [V, V0]
  simp only [hostOps0, hostOps0_1, hostOps0_2, List.flatten_cons, List.flatten_nil, List.append_nil, List.cons_append,
    List.nil_append]
  after_results
  rfl

/-- And its third operand the row of squared column norms of the padded w. -/
theorem V_operand2 (c : Dev nD) :
    (V m c main_v4 : S1x1024.Idx → EReal) = normRow (padded (m ((c : Thread nD τ).loc main_arg1))) := by
  dsimp only [V, V0]
  simp only [hostOps0, hostOps0_1, hostOps0_2, List.flatten_cons, List.flatten_nil, List.append_nil, List.cons_append,
    List.nil_append]
  after_results
  rfl

/-- At a column of w the second operand's entry (k, q) is w (k, q). -/
theorem operand1_apply (c : Dev nD) (w : FVec Ideal S512x1000 .f32) (hw : m ((c : Thread nD τ).loc main_arg1) = w)
    (k : Fin 512) (q : Fin 1024) (c' : Fin 1000) (hq : q.val = c'.val) :
    (V m c main_v1 : S512x1024.Idx → EReal) (ix2 k q) = w (ix2 k c') := by
  subst hw
  rw [V_operand1]
  exact padded_apply _ k q c' hq

/-- At a column of w the third operand's entry (0, q) is the squared norm of that column of w. -/
theorem operand2_apply (c : Dev nD) (w : FVec Ideal S512x1000 .f32) (hw : m ((c : Thread nD τ).loc main_arg1) = w)
    (q : Fin 1024) (c' : Fin 1000) (hq : q.val = c'.val) :
    @Eq EReal ((V m c main_v4 : S1x1024.Idx → EReal) (ix2 (0 : Fin 1) q)) (∑ k : Fin 512, (w (ix2 k c') : EReal) * w (ix2 k c')) := by
  subst hw
  rw [V_operand2, normRow_apply]
  exact Finset.sum_congr rfl fun k _ => by rw [padded_apply _ k q c' hq]

end Cert.KernelIdeal.Padded

end
-- ==== Proof.KernelResult.lean ====
/-
  The kernel program's result, and its run.

  After the kernel the program keeps the first 1000 columns of the output array [8192, 1024]. The output array holds
  `Whole.full` (the fused table of the left matrix, the widened right matrix and its row of norms); at a column
  q < 1000 the widened right matrix is w and the row of norms holds the squared norm of w's column q
  (`Padded.operand1_apply`, `Padded.operand2_apply`), so by `NegDistance.fused_eq_table` the entry (b, q) of the
  result is the entry (b, q) of the table of negated distances of the two arguments. The run is the generated frame
  run with this reading of its result.
-/
import proofs.«139918_j47777216201318_2_alg».proof.Proof.Gen.KernelIdeal.Frame
import proofs.«139918_j47777216201318_2_alg».proof.Proof.WholeTable
import proofs.«139918_j47777216201318_2_alg».proof.Proof.PaddedWeights
import proofs.«139918_j47777216201318_2_alg».proof.Proof.LibNegDistance
import Idealize.ShloMosaic.Lib.Pipeline.Value
import Idealize.ShloMosaic.Lib.StableHlo.Run
import Idealize.ShloMosaic.Lib.ValueLayout

noncomputable section

namespace Cert.KernelIdeal.Result

open Idealize.ShloMosaic Idealize.ShloMosaic.TcCoe Idealize.ShloMosaic.ValueIdx Idealize.ShloMosaic.StableHlo
open Idealize.SL.Sem Cert.KernelIdeal Cert.KernelIdeal.Gen

variable (m : (ℓ : Loc nD τ sig) → Buf (Elt Ideal) ℓ) (ρ : Dev nD → PrngReg)

/-- After the line that follows the kernel, the result buffer holds the first 1000 columns of `full`. -/
theorem tail_eq (c : Dev nD) :
    (Pipeline.afterTail₀ cfgs (dats m) 0 (V0 m) [hostOps1] c main_v6 : S8192x1000.Idx → EReal)
      = extractStridedSlice S8192x1000 ![0, 0] (Whole.full m c) slices_S8192x1024_S8192x1000_0_0 := by
  have e : Pipeline.withArrays (cfgs 0).spec c (V0 m c) (fun w => (dats m 0 c).arrAt w (cfgs 0).N) (Proc.devRef .tc main_v5)
      = Whole.full m c :=
    (Pipeline.withArrays_arr spec0 launch0.win.arr_inj c _ _ 3).trans (Whole.final m c)
  unfold Pipeline.afterTail₀
  show StableHlo.after hostOps1 _ (Proc.devRef .tc main_v6) = _
  after_results
  exact congrArg (fun X => extractStridedSlice S8192x1000 ![0, 0] X slices_S8192x1024_S8192x1000_0_0) e

/-- The result is the table of negated distances of the two arguments. -/
theorem result_eq (c : Dev nD) :
    (Pipeline.afterTail₀ cfgs (dats m) 0 (V0 m) [hostOps1] c main_v6 : S8192x1000.Idx → EReal)
      = NegDistance.table 8192 512 1000 (m ((c : Thread nD τ).loc main_arg0)) (m ((c : Thread nD τ).loc main_arg1)) := by
  rw [tail_eq]
  funext i
  obtain ⟨b, q, rfl⟩ : ∃ (b : Fin 8192) (q : Fin 1000), i = ix2 b q := ⟨i 0, i 1, eq_ix2 i⟩
  have hq : q.val < 1000 := q.isLt
  refine (slice2_axis1_apply 0 (Whole.full m c) slices_S8192x1024_S8192x1000_0_0 b q (⟨q.val, by omega⟩ : Fin 1024)
    (Nat.zero_add _).symm).trans ?_
  unfold Whole.full
  rw [V_main_arg0 m c]
  exact NegDistance.fused_eq_table 8192 512 1000 (C' := 1024) (m ((c : Thread nD τ).loc main_arg0))
    (m ((c : Thread nD τ).loc main_arg1)) (V m c main_v1) (V m c main_v4) b q (⟨q.val, by omega⟩ : Fin 1024)
    (fun k => Padded.operand1_apply m c _ rfl k _ q rfl)
    (Padded.operand2_apply m c _ rfl _ q rfl)

/-- Every weakly fair execution of the kernel program terminates with the result buffer at the table of negated
    distances of the two arguments, and the arguments as they were. -/
theorem run : θ_run defs (onTc (τ := τ) (main (F := Ideal))) ⟨m, fun _ => 0, ρ⟩ fun r => ∀ c : Dev nD,
      r.2.mem ((c : Thread nD τ).loc main_v6)
          = NegDistance.table 8192 512 1000 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v6 (Pipeline.mem_restRefs_of main_v6 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Result

end
-- ==== Proof.ReferenceTable.lean ====
/-
  The reference program's result is the table of negated distances of its two arguments.

  The reference computes, for x : [8192, 512] and w : [512, 1000], the row norms (a sum over axis 1 started from the
  zero word, kept as a column), the column norms (a sum over axis 0 started from the zero word, kept as a row), the
  product x w as one dot_general, and then entry by entry (|x_b|^2 + |w_c|^2) - 2 * (x w)(b, c), its maximum with zero,
  the square root and the negation. Read at (b, c) through the generated stage lemmas this is `NegDistance.table` at
  (b, c): the only steps are that the zero word is 0 (so each sum started from it is the sum), and that the host's
  negation is the difference from zero.
-/
import proofs.«139918_j47777216201318_2_alg».proof.Proof.Gen.ReferenceIdeal.Read
import proofs.«139918_j47777216201318_2_alg».proof.Proof.LibNegDistance

noncomputable section

namespace Cert.ReferenceIdeal.RefTable

open Idealize.ShloMosaic Idealize.ShloMosaic.ValueIdx Cert.ReferenceIdeal Cert.ReferenceIdeal.Read

theorem idx_v1 (i : S8192x1000.Idx) (k : Fin 512) : idx_main_v1 (idx_main_v2 (idx_main_v7 i)) k = ix2 (i 0) k :=
  funext fun a => Fin.ext (by match a with | ⟨0, _⟩ => rfl | ⟨1, _⟩ => rfl)
theorem idx_v4 (i : S8192x1000.Idx) (k : Fin 512) : idx_main_v4 (idx_main_v5 (idx_main_v8 i)) k = ix2 k (i 1) :=
  funext fun a => Fin.ext (by match a with | ⟨0, _⟩ => rfl | ⟨1, _⟩ => rfl)
theorem lidx_v6 (i : S8192x1000.Idx) (k : Fin 512) : lidx_main_v6 i k = ix2 (i 0) k :=
  funext fun a => Fin.ext (by match a with | ⟨0, _⟩ => rfl | ⟨1, _⟩ => rfl)
theorem ridx_v6 (i : S8192x1000.Idx) (k : Fin 512) : ridx_main_v6 i k = ix2 k (i 1) :=
  funext fun a => Fin.ext (by match a with | ⟨0, _⟩ => rfl | ⟨1, _⟩ => rfl)

/-- The reference's last stage is the table of negated distances. -/
theorem result_eq (x : FVec Ideal S8192x512 .f32) (w : FVec Ideal S512x1000 .f32) :
    val_main_v16 (F := Ideal) x w = NegDistance.table 8192 512 1000 x w := by
  funext i
  rw [val_main_v16_apply, val_main_v15_apply, val_main_v14_apply, val_main_v12_apply, val_main_v9_apply,
    val_main_v7_apply, val_main_v2_apply, val_main_v1_apply, val_main_v8_apply, val_main_v5_apply, val_main_v4_apply,
    val_main_v11_apply, val_main_v10_apply, val_main_v6_apply, val_main_v13_apply]
  simp only [val_main_v0_apply, val_main_v3_apply, val_main_cst_apply, val_main_cst_0_apply, val_main_cst_1_apply,
    val_main_cst_2_apply, idx_v1, idx_v4, lidx_v6, ridx_v6, Ideal.hostNegf_def, Ideal.negf_def, Ideal.hostUnary_sqrt_def,
    Ideal.maximumf_def, Ideal.subf_def, Ideal.addf_def, Ideal.mulf_def, Ideal.ofBits_def, Ideal.ofBits_zero_f32, zero_add]
  rfl

end Cert.ReferenceIdeal.RefTable

end
-- ==== Proof.lean ====
/-
  Negated Euclidean distances between the rows of x : [8192, 512] and the columns of w : [512, 1000]:

      result (b, c) = -sqrt (max ((|x_b|^2 + |w_c|^2) - 2 * <x_b, w_c>, 0)).

  The reference computes this directly: row norms, column norms, one matrix product, then the entrywise formula.
  The kernel program widens w by 24 zero columns, computes the widened matrix's column norms once, hands a kernel
  blocks of 1024 rows of x together with the whole widened matrix and the row of norms, and afterwards cuts the
  24 extra columns off. On the extended reals the two are one function, `NegDistance.table`:

  * a block of rows gives the rows of the whole table at the block's position (row locality), and the eight
    blocks tile the output (Proof/BlockEntry.lean, Proof/WholeTable.lean);
  * in the first 1000 columns the widened matrix is w and its column norms are w's, and the added columns are
    cut away unread (Proof/PaddedWeights.lean, Proof/KernelResult.lean);
  * the reference's stages, read at an index, are the table's entry (Proof/ReferenceTable.lean).

  No sum is regrouped or reordered beyond what a commutative monoid allows, no product is distributed and nothing
  is cancelled, so nothing needs the inputs to be finite: the precondition is never opened. The kernel's rounding of
  the matrix product's operands to a shorter format changes no value on the extended reals, and the idealized
  kernel is the kernel's own text, so there is nothing to preserve.
-/
import proofs.«139918_j47777216201318_2_alg».proof.Defs
import proofs.«139918_j47777216201318_2_alg».proof.Proof.Gen.Kernel
import proofs.«139918_j47777216201318_2_alg».proof.Proof.Gen.Kernel.Skeleton
import proofs.«139918_j47777216201318_2_alg».proof.Proof.Gen.Kernel.Launch
import proofs.«139918_j47777216201318_2_alg».proof.Proof.Gen.Kernel.Points
import proofs.«139918_j47777216201318_2_alg».proof.Proof.Gen.Kernel.Frame
import proofs.«139918_j47777216201318_2_alg».proof.Proof.Gen.KernelIdeal
import proofs.«139918_j47777216201318_2_alg».proof.Proof.Gen.KernelIdeal.Skeleton
import proofs.«139918_j47777216201318_2_alg».proof.Proof.Gen.KernelIdeal.Launch
import proofs.«139918_j47777216201318_2_alg».proof.Proof.Gen.KernelIdeal.Points
import proofs.«139918_j47777216201318_2_alg».proof.Proof.Gen.KernelIdeal.Frame
import proofs.«139918_j47777216201318_2_alg».proof.Proof.Gen.ReferenceIdeal
import proofs.«139918_j47777216201318_2_alg».proof.Proof.Gen.ReferenceIdeal.Run
import proofs.«139918_j47777216201318_2_alg».proof.Proof.Gen.ReferenceIdeal.Read
import proofs.«139918_j47777216201318_2_alg».proof.Proof.Gen.Pre_finite_inputs
import proofs.«139918_j47777216201318_2_alg».proof.Proof.KernelResult
import proofs.«139918_j47777216201318_2_alg».proof.Proof.ReferenceTable
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- Both programs end with the table of negated distances of the arguments, which agree. -/
theorem algebraic : Cert.algebraic_KernelIdeal_ReferenceIdeal := by
  intro m ρ m' ρ' _ hagree
  refine ⟨fun c => NegDistance.table 8192 512 1000
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefTable.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
